-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x256 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S2000x128 : Shape := ⟨2, ![2000, 128]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S256x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The layer as one function of its arrays, and the one law that joins its two spellings.

  With `h` the mean of the neighbours' features (an [N, 128] array), `x` the nodes' own features ([N, 128]),
  `W` the [128, 256] weight and `b` the bias, the layer's entry at node `p`, output channel `q` is

      (∑ k < 128, h[p, k] · W[q, k])  +  (∑ k < 128, x[p, k] · W[q, 128 + k])  +  b[q].

  One spelling multiplies `h` and `x` by the two halves of `W` and adds the products; the other joins `h` and `x` side
  by side into an [N, 256] array and contracts all 256 columns at once. They agree because a sum over 256 terms is the
  sum of its first 128 and of its last 128 terms (`sum_halves`): only that addition is commutative and associative
  is used, which holds on the extended reals whatever the entries are, infinite ones included.
-/
import Idealize.ShloMosaic.PureOps.Ideal
import Idealize.ShloMosaic.Lib.ValueIdx

noncomputable section

open scoped BigOperators

namespace Cert.Layer

open Idealize.ShloMosaic Idealize.ShloMosaic.ValueIdx

/-- Column `k` of the first half of a 256-column row. -/
abbrev lo (k : Fin 128) : Fin 256 := ⟨k.val, Nat.lt_trans k.isLt (by decide)⟩
/-- Column `128 + k`: column `k` of the second half. -/
abbrev hi (k : Fin 128) : Fin 256 := ⟨128 + k.val, by have := k.isLt; omega⟩

/-- A sum over 256 terms is the sum over the first 128 plus the sum over the last 128, in any commutative monoid. -/
theorem sum_halves {M : Type*} [AddCommMonoid M] (f : Fin 256 → M) :
    ∑ k : Fin 256, f k = ∑ k : Fin 128, f (lo k) + ∑ k : Fin 128, f (hi k) := by
  show ∑ k : Fin (128 + 128), f k = _
  rw [Fin.sum_univ_add]
  rfl

/-- The layer's entry at node `p`, output channel `q`. -/
def entry (h x : (⟨2, ![50000, 128]⟩ : Shape).Idx → EReal) (W : (⟨2, ![128, 256]⟩ : Shape).Idx → EReal)
    (b : (⟨1, ![128]⟩ : Shape).Idx → EReal) (p : Fin 50000) (q : Fin 128) : EReal :=
  (∑ k : Fin 128, h (ix2 p k) * W (ix2 q (lo k)) + ∑ k : Fin 128, x (ix2 p k) * W (ix2 q (hi k))) + b (ix1 q)

/-- The layer's result array: `entry` at every index. -/
def G (h x : (⟨2, ![50000, 128]⟩ : Shape).Idx → EReal) (W : (⟨2, ![128, 256]⟩ : Shape).Idx → EReal)
    (b : (⟨1, ![128]⟩ : Shape).Idx → EReal) : (⟨2, ![50000, 128]⟩ : Shape).Idx → EReal :=
  fun i => entry h x W b (i 0) (i 1)

theorem G_ix2 (h x : (⟨2, ![50000, 128]⟩ : Shape).Idx → EReal) (W : (⟨2, ![128, 256]⟩ : Shape).Idx → EReal)
    (b : (⟨1, ![128]⟩ : Shape).Idx → EReal) (p : Fin 50000) (q : Fin 128) :
    G h x W b (ix2 p q) = entry h x W b p q := rfl

end Cert.Layer

end
-- ==== Proof.KernelBody.lean ====
/-
  What the kernel body stores, read at one entry of the block.

  At a grid point the body loads a [2000, 128] block `a` of aggregated features, the matching block `x` of node
  features, the two [128, 128] halves `u`, `v` of the transposed weight and the bias row `β` ([1, 128]), and stores
  a · u + x · v + β  (matrix products into zero accumulators, the bias row repeated down the 2000 rows). On the
  extended reals a change of float format is the identity, so at row `r`, column `q` of the block the stored value is

      (∑ k < 128, a[r, k] · u[k, q])  +  (∑ k < 128, x[r, k] · v[k, q])  +  β[0, q].
-/
import proofs.«165369_j4380866642245_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The matrix product's dimension numbers: rows × contraction times contraction × columns, one contracted axis. -/
abbrev D : DotDims S2000x128 S128x128 S2000x128 := dot_S2000x128_S128x128_S2000x128_1_0_0_1_n_n

theorem lhs_row (i : S2000x128.Idx) (c : D.contr.Idx) : (D.lhsIdx i c 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_col (i : S2000x128.Idx) (c : D.contr.Idx) : (D.lhsIdx i c 1).val = (c ⟨0, by decide⟩).val :=
  D.lhsIdx_val_of_single rfl i c
theorem rhs_row (i : S2000x128.Idx) (c : D.contr.Idx) : (D.rhsIdx i c 0).val = (c ⟨0, by decide⟩).val :=
  D.rhsIdx_val_of_single rfl i c
theorem rhs_col (i : S2000x128.Idx) (c : D.contr.Idx) : (D.rhsIdx i c 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A [2000, 128] × [128, 128] product into the zero accumulator, at `(r, q)`: the row of the left factor against the
    column of the right one. -/
theorem product_entry {φ₁ φ₂ : FTy} (a : FVec Ideal S2000x128 φ₁) (w : FVec Ideal S128x128 φ₂) (r : Fin 2000) (q : Fin 128) :
    matmul (F := Ideal) D none a w (constant S2000x128 .f32 0x00000000#32) (ix2 r q)
      = ∑ k : Fin 128, a (ix2 r k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r q) ((contrEquiv1 D 128 rfl rfl).symm k) = ix2 r k := funext fun ax => Fin.ext (by
    match ax with
    | ⟨0, _⟩ => exact lhs_row _ _
    | ⟨1, _⟩ => exact (lhs_col _ _).trans hk)
  have er : D.rhsIdx (ix2 r q) ((contrEquiv1 D 128 rfl rfl).symm k) = ix2 k q := funext fun ax => Fin.ext (by
    match ax with
    | ⟨0, _⟩ => exact (rhs_row _ _).trans hk
    | ⟨1, _⟩ => exact rhs_col _ _)
  rw [el, er]

/-- The body's stored value at row `r`, column `q` of the block. -/
theorem stored_entry (a x : Vec Ideal S2000x128 .f32) (u v : Vec Ideal S128x128 .f32) (β : Vec Ideal S1x128 .f32)
    (r : Fin 2000) (q : Fin 128) :
    k0_pay1 (F := Ideal) a x u v β (ix2 r q)
      = (∑ k : Fin 128, a (ix2 r k) * u (ix2 k q) + ∑ k : Fin 128, x (ix2 r k) * v (ix2 k q)) + β (ix2 (0 : Fin 1) q) := by
  unfold k0_pay1
  rw [addf_apply, addf_apply, product_entry, product_entry, broadcastTo_1b_ab_apply]
  simp only [shapeCast_self]
  rfl

end Cert.KernelIdeal.Body

end
-- ==== Proof.KernelHost.lean ====
/-
  The arrays the kernel's windows stage, as the host operations in front of the call leave them.

  Besides the node features (an argument, untouched), the call is handed: the aggregated features (left here as the
  array the host operations computed, never opened); the first 128 columns of the [128, 256] weight, transposed; its
  last 128 columns, transposed; and the bias as one row. Read at an index:

      first half, transposed, at (k, q)  =  W[q, k]
      second half, transposed, at (k, q) =  W[q, 128 + k]
      bias row at (0, q)                 =  b[q].
-/
import proofs.«165369_j4380866642245_1_alg».proof.Proof.Gen.KernelIdeal.Frame
import proofs.«165369_j4380866642245_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.Layer

variable (m : (ℓ : Loc nD τ sig) → Buf (Elt Ideal) ℓ)

/-- The weight's first 128 columns, transposed, as the call finds them. -/
theorem weightLo_term (c : Dev nD) : (V m c main_v20 : S128x128.Idx → EReal)
    = transpose S128x128 [1, 0] (extractStridedSlice S128x128 ![0, 0] (m ((c : Thread nD τ).loc main_arg3)) Facts₀.slices_S128x256_S128x128_0_0)
        Facts₀.transposes_S128x128_S128x128_1_0 := by
  dsimp only [V, hostOps0]
  after_results <;> rfl

/-- The weight's last 128 columns, transposed, as the call finds them. -/
theorem weightHi_term (c : Dev nD) : (V m c main_v22 : S128x128.Idx → EReal)
    = transpose S128x128 [1, 0] (extractStridedSlice S128x128 ![0, 128] (m ((c : Thread nD τ).loc main_arg3)) Facts₀.slices_S128x256_S128x128_0_128)
        Facts₀.transposes_S128x128_S128x128_1_0 := by
  dsimp only [V, hostOps0]
  after_results <;> rfl

/-- The bias as one row, as the call finds it. -/
theorem biasRow_term (c : Dev nD) : (V m c main_v23 : S1x128.Idx → EReal)
    = shapeCast S1x128 (m ((c : Thread nD τ).loc main_arg4)) Facts₀.shapeCasts_S128_S1x128 := by
  dsimp only [V, hostOps0]
  after_results <;> rfl

/-- The first transposed half at `(k, q)` is the weight at `(q, k)`. -/
theorem weightLo_apply (c : Dev nD) (k q : Fin 128) :
    (V m c main_v20 : S128x128.Idx → EReal) (ix2 k q) = (m ((c : Thread nD τ).loc main_arg3) : S128x256.Idx → EReal) (ix2 q (lo k)) := by
  rw [weightLo_term, transpose_ix2_apply]
  exact extractStridedSlice_apply _ _ _ _ _ fun a => match a with
    | ⟨0, _⟩ => (Nat.zero_add _).symm
    | ⟨1, _⟩ => (Nat.zero_add _).symm

/-- The second transposed half at `(k, q)` is the weight at `(q, 128 + k)`. -/
theorem weightHi_apply (c : Dev nD) (k q : Fin 128) :
    (V m c main_v22 : S128x128.Idx → EReal) (ix2 k q) = (m ((c : Thread nD τ).loc main_arg3) : S128x256.Idx → EReal) (ix2 q (hi k)) := by
  rw [weightHi_term, transpose_ix2_apply]
  exact extractStridedSlice_apply _ _ _ _ _ fun a => match a with
    | ⟨0, _⟩ => (Nat.zero_add _).symm
    | ⟨1, _⟩ => rfl

/-- The bias row at `(0, q)` is the bias at `q`. -/
theorem biasRow_apply (c : Dev nD) (q : Fin 128) :
    (V m c main_v23 : S1x128.Idx → EReal) (ix2 (0 : Fin 1) q) = (m ((c : Thread nD τ).loc main_arg4) : S128.Idx → EReal) (ix1 q) := by
  rw [biasRow_term, shapeCast_a_1a_apply]

end Cert.KernelIdeal.Host

end
-- ==== Proof.KernelValue.lean ====
/-
  The kernel's result array as one function of the arrays its call is handed.

  The grid has 25 points; point `t` is handed rows `2000 t … 2000 t + 1999` of the aggregated features and of the node
  features, the whole of both transposed weight halves and the bias row, and writes back rows `2000 t … 2000 t + 1999`
  of the result. Row `r` of the block written at point `t` is therefore row `p = 2000 t + r` of `Cert.Layer.G`: the body's
  stored entry (`Body.stored_entry`) with each loaded block read where it sits in its array. The 25 blocks tile the
  50000 rows (row `p` lies in the block of point `p / 2000`), so the result array is `G` everywhere.
-/
import proofs.«165369_j4380866642245_1_alg».proof.Proof.Gen.KernelIdeal.Value
import proofs.«165369_j4380866642245_1_alg».proof.Proof.KernelBody
import proofs.«165369_j4380866642245_1_alg».proof.Proof.KernelHost
import proofs.«165369_j4380866642245_1_alg».proof.Proof.Spec
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Layer

variable (m : (ℓ : Loc nD τ sig) → Buf (Elt Ideal) ℓ) (ρ : Dev nD → PrngReg)

theorem origin : (![0, 0] : Fin 2 → Nat) = fun _ => 0 := funext fun a => by fin_cases a <;> rfl

/-- The block each window is handed at grid point `t`: the row-blocked windows (aggregated features, node features,
    result) take block row `t`; the weight halves and the bias row are always their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's function of the arrays the call is handed (the aggregated features as the host operations left them). -/
abbrev result (c : Dev nD) : S50000x128.Idx → EReal :=
  G (V m c main_v18) (m ((c : Thread nD τ).loc main_arg0)) (m ((c : Thread nD τ).loc main_arg3)) (m ((c : Thread nD τ).loc main_arg4))

/-! ## Each loaded block, read where it sits in its array -/

/-- A block of the aggregated-features window, cut out of any [50000, 128] array `A`: row `r` of the block at point `t`
    is row `2000 t + r` of `A`. -/
theorem rows_read0 (A : S50000x128.Idx → EReal) (t : Fin cfg0.N) (r : Fin 2000) (k : Fin 128) (p : Fin 50000)
    (hp : p.val = 2000 * t.val + r.val) :
    (((cfg0.win 0).blk t).view.read (Elt Ideal) A : Vec Ideal S2000x128 .f32) (ix2 r k) = A (ix2 p k) := by
  obtain ⟨e0, e1, -⟩ := block_index t
  rw [View.read_apply]
  show A _ = A _
  refine congrArg A (funext fun a => Fin.ext ?_)
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The same for the node-features window. -/
theorem rows_read1 (A : S50000x128.Idx → EReal) (t : Fin cfg0.N) (r : Fin 2000) (k : Fin 128) (p : Fin 50000)
    (hp : p.val = 2000 * t.val + r.val) :
    (((cfg0.win 1).blk t).view.read (Elt Ideal) A : Vec Ideal S2000x128 .f32) (ix2 r k) = A (ix2 p k) := by
  obtain ⟨-, -, e0, e1, -⟩ := block_index t
  rw [View.read_apply]
  show A _ = A _
  refine congrArg A (funext fun a => Fin.ext ?_)
  match a with
  | ⟨0, _⟩ => show win0_1.index t (0 : Fin 2) * 2000 + 1 * r.val = p.val; rw [e0, hp]; omega
  | ⟨1, _⟩ => show win0_1.index t (1 : Fin 2) * 128 + 1 * k.val = k.val; rw [e1]; omega

/-- The one block of the first weight half's window is the whole [128, 128] array. -/
theorem whole_read2 (A : S128x128.Idx → EReal) (t : Fin cfg0.N) (k q : Fin 128) :
    (((cfg0.win 2).blk t).view.read (Elt Ideal) A : Vec Ideal S128x128 .f32) (ix2 k q) = A (ix2 k q) := by
  obtain ⟨-, -, -, -, e0, e1, -⟩ := block_index t
  rw [View.read_apply]
  show A _ = A _
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The one block of the second weight half's window is the whole [128, 128] array. -/
theorem whole_read3 (A : S128x128.Idx → EReal) (t : Fin cfg0.N) (k q : Fin 128) :
    (((cfg0.win 3).blk t).view.read (Elt Ideal) A : Vec Ideal S128x128 .f32) (ix2 k q) = A (ix2 k q) := by
  obtain ⟨-, -, -, -, -, -, e0, e1, -⟩ := block_index t
  rw [View.read_apply]
  show A _ = A _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The one block of the bias row's window is the whole [1, 128] array. -/
theorem whole_read4 (A : S1x128.Idx → EReal) (t : Fin cfg0.N) (q : Fin 128) :
    (((cfg0.win 4).blk t).view.read (Elt Ideal) A : Vec Ideal S1x128 .f32) (ix2 (0 : Fin 1) q) = A (ix2 (0 : Fin 1) q) := by
  obtain ⟨-, -, -, -, -, -, -, -, e0, e1, -⟩ := block_index t
  rw [View.read_apply]
  show A _ = A _
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Row `r` of the aggregated-features block at point `t` is row `2000 t + r` of the array. -/
theorem agg_block (c : Dev nD) (t : Fin cfg0.N) (r : Fin 2000) (k : Fin 128) (p : Fin 50000) (hp : p.val = 2000 * t.val + r.val) :
    (iblk m c 0 t : Vec Ideal S2000x128 .f32) (ix2 r k) = (V m c main_v18 : S50000x128.Idx → EReal) (ix2 p k) :=
  rows_read0 (V m c main_v18) t r k p hp

/-- Row `r` of the node-features block at point `t` is row `2000 t + r` of the argument. -/
theorem feat_block (c : Dev nD) (t : Fin cfg0.N) (r : Fin 2000) (k : Fin 128) (p : Fin 50000) (hp : p.val = 2000 * t.val + r.val) :
    (iblk m c 1 t : Vec Ideal S2000x128 .f32) (ix2 r k) = (m ((c : Thread nD τ).loc main_arg0) : S50000x128.Idx → EReal) (ix2 p k) :=
  (rows_read1 (V m c main_arg0) t r k p hp).trans (congrFun (V_main_arg0 m c) (ix2 p k))

/-- The first weight half is handed whole at every point. -/
theorem lo_block (c : Dev nD) (t : Fin cfg0.N) (k q : Fin 128) :
    (iblk m c 2 t : Vec Ideal S128x128 .f32) (ix2 k q) = (m ((c : Thread nD τ).loc main_arg3) : S128x256.Idx → EReal) (ix2 q (lo k)) :=
  (whole_read2 (V m c main_v20) t k q).trans (Host.weightLo_apply m c k q)

/-- The second weight half is handed whole at every point. -/
theorem hi_block (c : Dev nD) (t : Fin cfg0.N) (k q : Fin 128) :
    (iblk m c 3 t : Vec Ideal S128x128 .f32) (ix2 k q) = (m ((c : Thread nD τ).loc main_arg3) : S128x256.Idx → EReal) (ix2 q (hi k)) :=
  (whole_read3 (V m c main_v22) t k q).trans (Host.weightHi_apply m c k q)

/-- The bias row is handed whole at every point. -/
theorem bias_block (c : Dev nD) (t : Fin cfg0.N) (q : Fin 128) :
    (iblk m c 4 t : Vec Ideal S1x128 .f32) (ix2 (0 : Fin 1) q) = (m ((c : Thread nD τ).loc main_arg4) : S128.Idx → EReal) (ix1 q) :=
  (whole_read4 (V m c main_v23) t q).trans (Host.biasRow_apply m c q)

/-! ## One stored entry is one entry of `G` -/

/-- If the loaded blocks read, along row `r` and column `q`, what the arrays hold along row `p` and column `q`, the
    body's stored entry at `(r, q)` is `G` at `(p, q)`. -/
theorem stored_is_G (a x : Vec Ideal S2000x128 .f32) (u v : Vec Ideal S128x128 .f32) (β : Vec Ideal S1x128 .f32)
    (h feat : S50000x128.Idx → EReal) (W : S128x256.Idx → EReal) (b : S128.Idx → EReal)
    (y : S2000x128.Idx) (i : S50000x128.Idx) (r : Fin 2000) (q : Fin 128) (p : Fin 50000)
    (hr : (y 0).val = r.val) (hq : (y 1).val = q.val) (hp : (i 0).val = p.val) (hq' : (i 1).val = q.val)
    (ha : ∀ k : Fin 128, a (ix2 r k) = h (ix2 p k)) (hx : ∀ k : Fin 128, x (ix2 r k) = feat (ix2 p k))
    (hu : ∀ k : Fin 128, u (ix2 k q) = W (ix2 q (lo k))) (hv : ∀ k : Fin 128, v (ix2 k q) = W (ix2 q (hi k)))
    (hβ : β (ix2 (0 : Fin 1) q) = b (ix1 q)) :
    k0_pay1 (F := Ideal) a x u v β y = G h feat W b i := by
  obtain rfl : y = ix2 r q := funext fun ax => Fin.ext (by match ax with | ⟨0, _⟩ => exact hr | ⟨1, _⟩ => exact hq)
  obtain rfl : i = ix2 p q := funext fun ax => Fin.ext (by match ax with | ⟨0, _⟩ => exact hp | ⟨1, _⟩ => exact hq')
  rw [Body.stored_entry, G_ix2]
  unfold entry
  simp only [ha, hx, hu, hv, hβ]

/-! ## From the 25 blocks to the array -/

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S2000x128) origin, View.ld_unit_zero (S := S128x128) origin, View.ld_unit_zero (S := S1x128) origin]
  funext j
  rw [View.read_apply]
  refine Eq.trans ?_ (cast_eq _ _).symm
  have hr : (j 0).val < 2000 := (j 0).isLt
  have hq : (j 1).val < 128 := (j 1).isLt
  have hN : t.val < 25 := t.isLt
  obtain ⟨-, -, -, -, -, -, -, -, -, -, e0, e1⟩ := block_index t
  have hp : 2000 * t.val + (j 0).val < 50000 := by omega
  exact stored_is_G (iblk m c 0 t) (iblk m c 1 t) (iblk m c 2 t) (iblk m c 3 t) (iblk m c 4 t)
    (V m c main_v18) (m ((c : Thread nD τ).loc main_arg0)) (m ((c : Thread nD τ).loc main_arg3)) (m ((c : Thread nD τ).loc main_arg4))
    ((win0 5).xinj (grid0.coords t) j) (((View.whole main_v24).slice ((win0 5).rect t)).emb j)
    ⟨(j 0).val, hr⟩ ⟨(j 1).val, hq⟩ ⟨2000 * t.val + (j 0).val, hp⟩ rfl rfl
    (by show win0_5.index t (0 : Fin 2) * 2000 + 1 * (j 0).val = 2000 * t.val + (j 0).val; rw [e0]; omega)
    (by show win0_5.index t (1 : Fin 2) * 128 + 1 * (j 1).val = (j 1).val; rw [e1]; omega)
    (fun k => agg_block m c t ⟨(j 0).val, hr⟩ k ⟨2000 * t.val + (j 0).val, hp⟩ rfl)
    (fun k => feat_block m c t ⟨(j 0).val, hr⟩ k ⟨2000 * t.val + (j 0).val, hp⟩ rfl)
    (fun k => lo_block m c t k ⟨(j 1).val, hq⟩)
    (fun k => hi_block m c t k ⟨(j 1).val, hq⟩)
    (bias_block m c t ⟨(j 1).val, hq⟩)

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every index of the result array is in the block of the point its row falls to: row `p` in block `p / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := by show (i 0).val / 2000 < grid0.N; rw [N_0]; omega
  obtain ⟨-, -, -, -, -, -, -, -, -, -, e0, e1⟩ := block_index ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]
    omega

/-- After the run the result array is `result`. -/
theorem final (c : Dev nD) : (dats m 0 c).arrAt 5 cfg0.N = result m c :=
  (dats m 0 c).arrAt_eq_of_cover 5 (result m c) (fun t _ => flushed_eq m c t) cover

/-- The kernel's run, read: the result array ends at the layer's function of the arrays the call was handed, the
    arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference, read at an index, is the layer's function `Cert.Layer.G`.

  The reference joins the mean-aggregated features `h` and the node features `x` side by side into an [N, 256]
  array, contracts its 256 columns against the transposed weight, and adds the bias broadcast over the rows. At
  row `p`, column `q` that is  ∑ k < 256, [h | x][p, k] · W[q, k]  +  b[q].  The joined array reads `h[p, k]` on its
  first 128 columns and `x[p, k − 128]` on the last 128, so splitting the sum in halves (`Cert.Layer.sum_halves`)
  gives the two 128-term sums of `Cert.Layer.entry`.
-/
import proofs.«165369_j4380866642245_1_alg».proof.Proof.Gen.ReferenceIdeal.Read
import proofs.«165369_j4380866642245_1_alg».proof.Proof.Spec

noncomputable section

open scoped BigOperators

namespace Cert.ReferenceIdeal.RefValue

open Cert.ReferenceIdeal Cert.ReferenceIdeal.Read Idealize.ShloMosaic Idealize.ShloMosaic.ValueIdx Cert.Layer

/-- The joined array at row `p`, a column of the first half: the aggregated features there. -/
theorem joined_lo (h x : S50000x128.Idx → EReal) (p : Fin 50000) (q : Fin 128) (k : Fin 128) :
    concatenate S50000x256 1 [⟨S50000x128, h⟩, ⟨S50000x128, x⟩] Facts₀.concatenates_S50000x128_S50000x128_S50000x256_d1
      (lidx_main_v21 (ix2 p q) (lo k)) = h (ix2 p k) :=
  concatenate_pair_apply_left (1 : Fin S50000x256.rank) h x _ _ rfl (ix2 p k) fun b =>
    match b with | ⟨0, _⟩ => rfl | ⟨1, _⟩ => rfl

/-- The joined array at row `p`, a column of the second half: the node's own features, 128 columns back. -/
theorem joined_hi (h x : S50000x128.Idx → EReal) (p : Fin 50000) (q : Fin 128) (k : Fin 128) :
    concatenate S50000x256 1 [⟨S50000x128, h⟩, ⟨S50000x128, x⟩] Facts₀.concatenates_S50000x128_S50000x128_S50000x256_d1
      (lidx_main_v21 (ix2 p q) (hi k)) = x (ix2 p k) :=
  concatenate_pair_apply_right (1 : Fin S50000x256.rank) h x _ _ rfl rfl (ix2 p k)
    (fun b hb => match b with | ⟨0, _⟩ => rfl | ⟨1, _⟩ => absurd rfl hb)
    (show k.val + 128 = 128 + k.val from Nat.add_comm _ _)

/-- The transposed weight at (column `c` of the joined array, output channel `q`) is the weight at `(q, c)`. -/
theorem weight_idx (p : Fin 50000) (q : Fin 128) (c : Fin 256) :
    idx_main_v20 (ridx_main_v21 (ix2 p q) c) = ix2 q c :=
  funext fun a => Fin.ext (by match a with | ⟨0, _⟩ => rfl | ⟨1, _⟩ => rfl)

/-- The bias broadcast over the rows, at `(p, q)`, is the bias at `q`. -/
theorem bias_idx (p : Fin 50000) (q : Fin 128) : idx_main_v22 (idx_main_v23 (ix2 p q)) = ix1 q :=
  funext fun a => Fin.ext (by match a with | ⟨0, _⟩ => rfl)

/-- The reference's result is the layer's function of the aggregated features (its own stage `val_main_v18`), the node
    features, the weight and the bias. -/
theorem result_eq (x0 : S50000x128.Idx → EReal) (x1 x2 : S800000.Idx → BitVec 32) (x3 : S128x256.Idx → EReal)
    (x4 : S128.Idx → EReal) :
    val_main_v24 (F := Ideal) x0 x1 x2 x3 x4 = G (val_main_v18 (F := Ideal) x0 x1 x2) x0 x3 x4 := by
  funext i
  obtain ⟨p, q, rfl⟩ : ∃ (p : Fin 50000) (q : Fin 128), i = ix2 p q := ⟨i 0, i 1, eq_ix2 i⟩
  rw [G_ix2, val_main_v24_apply, val_main_v21_apply, val_main_v23_apply, val_main_v22_apply, bias_idx, sum_halves]
  unfold entry
  refine congrArg₂ (fun s t : EReal => (s + t) + x4 (ix1 q)) ?_ ?_
  · refine Finset.sum_congr rfl fun k _ => ?_
    rw [val_main_v20_apply, weight_idx]
    unfold val_main_v19
    rw [joined_lo]
  · refine Finset.sum_congr rfl fun k _ => ?_
    rw [val_main_v20_apply, weight_idx]
    unfold val_main_v19
    rw [joined_hi]

end Cert.ReferenceIdeal.RefValue

end
-- ==== Proof.HostAgree.lean ====
/-
  Both programs aggregate the neighbours' features with the same host operations.

  In front of the kernel call, and at the head of the reference, stand the same operations in the same order: wrap
  negative source indices, gather the source rows, add them into the destination rows, count each destination's
  incoming edges the same way, and divide each row by the larger of its count and one. The kernel's program hands
  the result to the call as its first operand; the reference names the same term as a stage. The two terms are one,
  operation for operation, and neither the gather nor the scatter-add is ever opened.
-/
import proofs.«165369_j4380866642245_1_alg».proof.Proof.Gen.KernelIdeal.Frame
import proofs.«165369_j4380866642245_1_alg».proof.Proof.Gen.ReferenceIdeal.Read
import Idealize.ShloMosaic.Lib.StableHlo.Run

noncomputable section

namespace Cert.Layer

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxHeartbeats 400000 in
/-- The array the kernel call stages as its first operand is the reference's aggregation stage of the same three
    arguments (node features, source indices, destination indices). -/
theorem aggregated_eq (c : Dev Cert.KernelIdeal.nD) :
    (Cert.KernelIdeal.Gen.V m c Cert.KernelIdeal.main_v18 : Cert.KernelIdeal.S50000x128.Idx → EReal)
      = Cert.ReferenceIdeal.Read.val_main_v18 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  dsimp only [Cert.KernelIdeal.Gen.V, Cert.KernelIdeal.Gen.hostOps0]
  after_results
  rfl

end Cert.Layer

end
-- ==== Proof.lean ====
/-
  A graph-convolution layer: each node's feature row is joined with the mean of its in-neighbours' rows and sent through
  one linear map,  out = [h | x] · Wᵀ + b,  where `x` is the [N, 128] node features, `h` the [N, 128] neighbour means,
  `W` a [128, 256] weight and `b` a bias.

  Both programs compute `h` by the same host operations (gather the source rows, add them into the destination rows,
  divide by the in-degree clamped below at one): that part is one shared term and is never opened (`Cert.Layer.aggregated_eq`).
  They differ in the linear map. The kernel, 2000 rows at a time, multiplies `h` by the transposed first 128 columns of
  `W` and `x` by the transposed last 128 columns, adds the two products and the bias row. The reference contracts the
  joined [N, 256] array against all of `Wᵀ` at once. Entry `(p, q)` of either is

      ∑ k < 128, h[p, k] · W[q, k]  +  ∑ k < 128, x[p, k] · W[q, 128 + k]  +  b[q]        (`Cert.Layer.G`)

  — for the reference because a sum over 256 columns is the sum over its two halves, which needs only that addition
  on the extended reals is commutative and associative; no entry has to be finite, so the precondition is not used.
  A change of float format is the identity on the extended reals, and the idealization rewrote nothing, so the kernel
  is its own idealization.

  The kernel's value is read in `Proof/KernelBody.lean` (one stored entry), `Proof/KernelHost.lean` (the weight halves and
  the bias row as the call finds them) and `Proof/KernelValue.lean` (the 25 row blocks tile the result); the reference's in
  `Proof/RefValue.lean`; the shared aggregation in `Proof/HostAgree.lean`; the function itself in `Proof/Spec.lean`.
-/
import proofs.«165369_j4380866642245_1_alg».proof.Defs
import proofs.«165369_j4380866642245_1_alg».proof.Proof.Gen.Kernel
import proofs.«165369_j4380866642245_1_alg».proof.Proof.Gen.Kernel.Frame
import proofs.«165369_j4380866642245_1_alg».proof.Proof.Gen.KernelIdeal
import proofs.«165369_j4380866642245_1_alg».proof.Proof.Gen.KernelIdeal.Frame
import proofs.«165369_j4380866642245_1_alg».proof.Proof.Gen.KernelIdeal.Value
import proofs.«165369_j4380866642245_1_alg».proof.Proof.Gen.ReferenceIdeal
import proofs.«165369_j4380866642245_1_alg».proof.Proof.Gen.ReferenceIdeal.Run
import proofs.«165369_j4380866642245_1_alg».proof.Proof.Gen.ReferenceIdeal.Read
import proofs.«165369_j4380866642245_1_alg».proof.Proof.Gen.Pre_finite_inputs
import proofs.«165369_j4380866642245_1_alg».proof.Proof.Spec
import proofs.«165369_j4380866642245_1_alg».proof.Proof.KernelValue
import proofs.«165369_j4380866642245_1_alg».proof.Proof.RefValue
import proofs.«165369_j4380866642245_1_alg».proof.Proof.HostAgree
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading on the extended reals. -/
theorem preserves : Cert.preserves_Kernel_KernelIdeal := trivial

/-- From memories agreeing on the five arguments both programs end with the layer's function `Cert.Layer.G` of the shared
    neighbour means, the node features, the weight and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.ReferenceIdeal.RefValue.result_eq,
    (hagree c).1, (hagree c).2.1, (hagree c).2.2.1, (hagree c).2.2.2.1, (hagree c).2.2.2.2,
    ← Cert.Layer.aggregated_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
